-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x256 : Shape := ⟨4, ![8, 256, 256, 256]⟩
abbrev S8x256 : Shape := ⟨2, ![8, 256]⟩
abbrev S256x256 : Shape := ⟨2, ![256, 256]⟩
abbrev S256 : Shape := ⟨1, ![256]⟩
abbrev S_ : Shape := ⟨0, ![]⟩

class Facts : Prop where
  bcast_S_S8x256x256x256 : S_.BroadcastsInDim S8x256x256x256 (![] : Fin 0 → Fin S8x256x256x256.rank)
  reducesTo_S8x256x256x256_S_d0_1_2_3 : S8x256x256x256.ReducesTo [0, 1, 2, 3] S_
  h_S_ : 0 < S_.numel
  bcast_S_S8x256 : S_.BroadcastsInDim S8x256 (![] : Fin 0 → Fin S8x256.rank)
  reducesTo_S8x256_S_d0_1 : S8x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8x256x256x256 .f32) (main_arg1 : FVec F S8x256 .f32) (main_arg2 : FVec F S256x256 .f32) (main_arg3 : FVec F S256 .f32) (main_arg4 : FVec F S256x256 .f32) (main_arg5 : FVec F S256 .f32) : IVec S_ 1 :=
  let main_v0 : FVec F S8x256x256x256 .f32 := Host.absf main_arg0
  let main_cst : FVec F S_ .f32 := constant S_ .f32 0x7F800000#32
  let main_v1 : FVec F S8x256x256x256 .f32 := broadcastInDim S8x256x256x256 ![] bcast_S_S8x256x256x256 main_cst
  let main_v2 : IVec S8x256x256x256 1 := cmpf .olt main_v0 main_v1
  let main_c : IVec S_ 1 := constantI S_ 1 1#1
  let main_v3 : IVec S_ 1 := (fun x v => Host.reduce IntOp.andi x v reducesTo_S8x256x256x256_S_d0_1_2_3 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8x256x256x256 : Shape := ⟨4, ![8, 256, 256, 256]⟩
abbrev S8x256 : Shape := ⟨2, ![8, 256]⟩
abbrev S256x256 : Shape := ⟨2, ![256, 256]⟩
abbrev S256 : Shape := ⟨1, ![256]⟩
abbrev S1x256 : Shape := ⟨2, ![1, 256]⟩
abbrev S_ : Shape := ⟨0, ![]⟩
abbrev S8 : Shape := ⟨1, ![8]⟩
abbrev S8x1 : Shape := ⟨2, ![8, 1]⟩
abbrev S2048x65536 : Shape := ⟨2, ![2048, 65536]⟩
abbrev S2048x1 : Shape := ⟨2, ![2048, 1]⟩
abbrev S32x65536 : Shape := ⟨2, ![32, 65536]⟩
abbrev S32x1 : Shape := ⟨2, ![32, 1]⟩

abbrev nBuf : Space → Nat
  | .hbm => 44
  | .vmem => 6
  | .smem => 0
  | _ => 0

abbrev bufTy : (tb : Table) → Fin (tcTables nBuf tb) → BufTy
  | .hbm, ⟨0, _⟩ => ⟨S8x256x256x256, .f32⟩
  | .hbm, ⟨1, _⟩ => ⟨S8x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S8x256, .f32⟩
  | .hbm, ⟨8, _⟩ => ⟨S1x256, .f32⟩
  | .hbm, ⟨9, _⟩ => ⟨S8x256, .f32⟩
  | .hbm, ⟨10, _⟩ => ⟨S8x256, .f32⟩
  | .hbm, ⟨11, _⟩ => ⟨S_, .f32⟩
  | .hbm, ⟨12, _⟩ => ⟨S8x256, .f32⟩
  | .hbm, ⟨13, _⟩ => ⟨S8x256, .i1⟩
  | .hbm, ⟨14, _⟩ => ⟨S_, .f32⟩
  | .hbm, ⟨15, _⟩ => ⟨S8x256, .f32⟩
  | .hbm, ⟨16, _⟩ => ⟨S8x256, .f32⟩
  | .hbm, ⟨17, _⟩ => ⟨S8x256, .f32⟩
  | .hbm, ⟨18, _⟩ => ⟨S256x256, .f32⟩
  | .hbm, ⟨19, _⟩ => ⟨S8x256, .f32⟩
  | .hbm, ⟨20, _⟩ => ⟨S1x256, .f32⟩
  | .hbm, ⟨21, _⟩ => ⟨S8x256, .f32⟩
  | .hbm, ⟨22, _⟩ => ⟨S8x256, .f32⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8x1, .f32⟩
  | .hbm, ⟨29, _⟩ => ⟨S8x256, .f32⟩
  | .hbm, ⟨30, _⟩ => ⟨S8x256, .f32⟩
  | .hbm, ⟨31, _⟩ => ⟨S8x256, .f32⟩
  | .hbm, ⟨32, _⟩ => ⟨S_, .f32⟩
  | .hbm, ⟨33, _⟩ => ⟨S8, .f32⟩
  | .hbm, ⟨34, _⟩ => ⟨S8x1, .f32⟩
  | .hbm, ⟨35, _⟩ => ⟨S8x256, .f32⟩
  | .hbm, ⟨36, _⟩ => ⟨S8x256, .f32⟩
  | .hbm, ⟨37, _⟩ => ⟨S_, .f32⟩
  | .hbm, ⟨38, _⟩ => ⟨S8x256, .f32⟩
  | .hbm, ⟨39, _⟩ => ⟨S8x256, .f32⟩
  | .hbm, ⟨40, _⟩ => ⟨S2048x65536, .f32⟩
  | .hbm, ⟨41, _⟩ => ⟨S2048x1, .f32⟩
  | .hbm, ⟨42, _⟩ => ⟨S2048x65536, .f32⟩
  | .hbm, ⟨43, _⟩ => ⟨S8x256x256x256, .f32⟩
  | .local _ .vmem, ⟨0, _⟩ => ⟨S32x65536, .f32⟩
  | .local _ .vmem, ⟨1, _⟩ => ⟨S32x65536, .f32⟩
  | .local _ .vmem, ⟨2, _⟩ => ⟨S32x1, .f32⟩
  | .local _ .vmem, ⟨3, _⟩ => ⟨S32x1, .f32⟩
  | .local _ .vmem, ⟨4, _⟩ => ⟨S32x65536, .f32⟩
  | .local _ .vmem, ⟨5, _⟩ => ⟨S32x65536, .f32⟩
  | _, _ => ⟨S8x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S256x256_S256x256_1_0 : S256x256.Transposes [1, 0] S256x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  reducesTo_S8x256_S8_d1 : S8x256.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x256_0_1 : S8x1.BroadcastsInDim S8x256 (![0, 1] : Fin 2 → Fin S8x256.rank)
  shapeCasts_S8x256x256x256_S2048x65536 : S8x256x256x256.ShapeCasts S2048x65536
  shapeCasts_S8x256_S2048x1 : S8x256.ShapeCasts S2048x1
  inb_S32x65536_S32x65536_0_0 : ∀ a, (![0, 0] : Fin 2 → Nat) a + S32x65536.size a ≤ S32x65536.size a
  h_S32x65536 : 0 < S32x65536.numel
  shapeCasts_S32x65536_S32x65536 : S32x65536.ShapeCasts S32x65536
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x65536 : S32x1.Broadcasts S32x65536
  shapeCasts_S2048x65536_S8x256x256x256 : S2048x65536.ShapeCasts S8x256x256x256
  dot_S8x256_S256x256_S8x256_1_0_0_1_n_n_wf : DotDims.WF S8x256 S256x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x65536.size a ≤ S2048x65536.size a
  hwx0_0 : ∀ i : grid0.Coords, EltTy.bits .f32 = 32 ∨ (Rect.block (s := S2048x65536) S32x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S2048x1.size a
  hwx0_1 : ∀ i : grid0.Coords, EltTy.bits .f32 = 32 ∨ (Rect.block (s := S2048x1) S32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x65536.size a ≤ S2048x65536.size a
  hwx0_2 : ∀ i : grid0.Coords, EltTy.bits .f32 = 32 ∨ (Rect.block (s := S2048x65536) S32x65536.size (cc0_transform_2 i) (hinb0_2 i)).WholeWords (EltTy.packing .f32)

variable [Facts₀]

def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf

abbrev win0_0 : Pipeline.Window sig grid0 :=
  Pipeline.Window.ofSpec (Memref.whole main_v28) S32x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S32x65536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S8x256x256x256 : Shape := ⟨4, ![8, 256, 256, 256]⟩
abbrev S8x256 : Shape := ⟨2, ![8, 256]⟩
abbrev S256x256 : Shape := ⟨2, ![256, 256]⟩
abbrev S256 : Shape := ⟨1, ![256]⟩
abbrev S1x256 : Shape := ⟨2, ![1, 256]⟩
abbrev S_ : Shape := ⟨0, ![]⟩
abbrev S8 : Shape := ⟨1, ![8]⟩
abbrev S8x1 : Shape := ⟨2, ![8, 1]⟩
abbrev S8x256x1x1 : Shape := ⟨4, ![8, 256, 1, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x256x256x256, .f32⟩
  | .hbm, ⟨1, _⟩ => ⟨S8x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S8x256, .f32⟩
  | .hbm, ⟨8, _⟩ => ⟨S1x256, .f32⟩
  | .hbm, ⟨9, _⟩ => ⟨S8x256, .f32⟩
  | .hbm, ⟨10, _⟩ => ⟨S8x256, .f32⟩
  | .hbm, ⟨11, _⟩ => ⟨S_, .f32⟩
  | .hbm, ⟨12, _⟩ => ⟨S8x256, .f32⟩
  | .hbm, ⟨13, _⟩ => ⟨S8x256, .i1⟩
  | .hbm, ⟨14, _⟩ => ⟨S_, .f32⟩
  | .hbm, ⟨15, _⟩ => ⟨S8x256, .f32⟩
  | .hbm, ⟨16, _⟩ => ⟨S8x256, .f32⟩
  | .hbm, ⟨17, _⟩ => ⟨S8x256, .f32⟩
  | .hbm, ⟨18, _⟩ => ⟨S256x256, .f32⟩
  | .hbm, ⟨19, _⟩ => ⟨S8x256, .f32⟩
  | .hbm, ⟨20, _⟩ => ⟨S1x256, .f32⟩
  | .hbm, ⟨21, _⟩ => ⟨S8x256, .f32⟩
  | .hbm, ⟨22, _⟩ => ⟨S8x256, .f32⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8x1, .f32⟩
  | .hbm, ⟨29, _⟩ => ⟨S8x256, .f32⟩
  | .hbm, ⟨30, _⟩ => ⟨S8x256, .f32⟩
  | .hbm, ⟨31, _⟩ => ⟨S8x256, .f32⟩
  | .hbm, ⟨32, _⟩ => ⟨S_, .f32⟩
  | .hbm, ⟨33, _⟩ => ⟨S8, .f32⟩
  | .hbm, ⟨34, _⟩ => ⟨S8x1, .f32⟩
  | .hbm, ⟨35, _⟩ => ⟨S8x256, .f32⟩
  | .hbm, ⟨36, _⟩ => ⟨S8x256, .f32⟩
  | .hbm, ⟨37, _⟩ => ⟨S8x256x1x1, .f32⟩
  | .hbm, ⟨38, _⟩ => ⟨S_, .f32⟩
  | .hbm, ⟨39, _⟩ => ⟨S8x256x1x1, .f32⟩
  | .hbm, ⟨40, _⟩ => ⟨S8x256x1x1, .f32⟩
  | .hbm, ⟨41, _⟩ => ⟨S8x256x256x256, .f32⟩
  | .hbm, ⟨42, _⟩ => ⟨S8x256x256x256, .f32⟩
  | _, _ => ⟨S8x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  reducesTo_S8x256_S8_d1 : S8x256.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x256_0_1 : S8x1.BroadcastsInDim S8x256 (![0, 1] : Fin 2 → Fin S8x256.rank)
  bcast_S8x256_S8x256x1x1_0_1 : S8x256.BroadcastsInDim S8x256x1x1 (![0, 1] : Fin 2 → Fin S8x256x1x1.rank)
  bcast_S_S8x256x1x1 : S_.BroadcastsInDim S8x256x1x1 (![] : Fin 0 → Fin S8x256x1x1.rank)
  bcast_S8x256x1x1_S8x256x256x256_0_1_2_3 : S8x256x1x1.BroadcastsInDim S8x256x256x256 (![0, 1, 2, 3] : Fin 4 → Fin S8x256x256x256.rank)
  dot_S8x256_S256x256_S8x256_1_0_0_1_n_n_wf : DotDims.WF S8x256 S256x256 S8x256 [1] [0] [0] [1] [] []

variable [Facts₀]

def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf

class Facts : Prop extends Facts₀ where

variable [Facts]
-- ==== Proof.LibFlattenPairs.lean ====
/-
  Reshapes that merge the axes of an array in pairs, read at an index.

  A row-major array of shape [a, b, c, d] and the matrix of shape [a·b, c·d] hold the same entries in the same
  order: entry (i, j, p, q) of the first sits at row i·b + j and column p·d + q of the second. Likewise a matrix
  [a, b] and the column [a·b, 1]: entry (i, j) sits at row i·b + j. The three lemmas below read a shape cast
  between such shapes at an index given by its coordinates; the extents are arbitrary (the merged extents are
  named n and k with hypotheses a·b = n, c·d = k, so that literal shapes match without arithmetic).
-/
import Idealize.ShloMosaic.Lib.Pipeline.Value
import Idealize.ShloMosaic.Lib.ValueIdx

namespace Cert.LibFlattenPairs

open Idealize.ShloMosaic Idealize.ShloMosaic.ValueIdx

/-- Position i·b + j lies below a·b when i < a and j < b. -/
theorem merged_lt {a b i j : ℕ} (hi : i < a) (hj : j < b) : i * b + j < a * b :=
  calc i * b + j < i * b + b := by omega
    _ = (i + 1) * b := by rw [Nat.add_mul, Nat.one_mul]
    _ ≤ a * b := Nat.mul_le_mul_right b hi

/-- The merged coordinate i·b + j of a pair (i, j) with i < a, j < b, as a coordinate of an axis of extent n = a·b. -/
def merged {a b n : ℕ} (h : a * b = n) (i : Fin a) (j : Fin b) : Fin n :=
  ⟨i.val * b + j.val, h ▸ merged_lt i.isLt j.isLt⟩

@[simp] theorem merged_val {a b n : ℕ} (h : a * b = n) (i : Fin a) (j : Fin b) :
    (merged h i j).val = i.val * b + j.val := rfl

variable {α : Type}

/-- An [a, b, c, d] array cast to [a·b, c·d], read at row i·b + j and column p·d + q, is the array at (i, j, p, q). -/
theorem flatten_pairs_apply {a b c d n k : ℕ} (hn : a * b = n) (hk : c * d = k)
    (x : (⟨4, ![a, b, c, d]⟩ : Shape).Idx → α) (h : (⟨4, ![a, b, c, d]⟩ : Shape).ShapeCasts ⟨2, ![n, k]⟩)
    (i : Fin a) (j : Fin b) (p : Fin c) (q : Fin d) :
    shapeCast ⟨2, ![n, k]⟩ x h (ix2 (merged hn i j) (merged hk p q)) = x (ix4 i j p q) :=
  shapeCast_apply x h _ _ (by
    rw [Shape.rowMajor_val_four, Shape.rowMajor_val_two]
    show ((i.val * b + j.val) * c + p.val) * d + q.val = (i.val * b + j.val) * k + (p.val * d + q.val)
    subst hk
    ring)

/-- An [a·b, c·d] matrix cast to [a, b, c, d], read at (i, j, p, q), is the matrix at row i·b + j, column p·d + q. -/
theorem unflatten_pairs_apply {a b c d n k : ℕ} (hn : a * b = n) (hk : c * d = k)
    (y : (⟨2, ![n, k]⟩ : Shape).Idx → α) (h : (⟨2, ![n, k]⟩ : Shape).ShapeCasts ⟨4, ![a, b, c, d]⟩)
    (i : Fin a) (j : Fin b) (p : Fin c) (q : Fin d) :
    shapeCast ⟨4, ![a, b, c, d]⟩ y h (ix4 i j p q) = y (ix2 (merged hn i j) (merged hk p q)) :=
  shapeCast_apply y h _ _ (by
    rw [Shape.rowMajor_val_two, Shape.rowMajor_val_four]
    show (i.val * b + j.val) * k + (p.val * d + q.val) = ((i.val * b + j.val) * c + p.val) * d + q.val
    subst hk
    ring)

/-- An [a, b] matrix cast to the column [a·b, 1], read at row i·b + j, is the matrix at (i, j). -/
theorem column_of_matrix_apply {a b n : ℕ} (hn : a * b = n)
    (g : (⟨2, ![a, b]⟩ : Shape).Idx → α) (h : (⟨2, ![a, b]⟩ : Shape).ShapeCasts ⟨2, ![n, 1]⟩)
    (i : Fin a) (j : Fin b) :
    shapeCast ⟨2, ![n, 1]⟩ g h (ix2 (merged hn i j) (0 : Fin 1)) = g (ix2 i j) :=
  shapeCast_apply g h _ _ (by
    rw [Shape.rowMajor_val_two, Shape.rowMajor_val_two]
    show i.val * b + j.val = (i.val * b + j.val) * 1 + 0
    omega)

end Cert.LibFlattenPairs
-- ==== Proof.ChannelScale.lean ====
/-
  The specification: a per-channel scale of a batch of images, in its two layouts.

  The result of both programs is x[b, c, h, w] · g[b, c] for an array x of shape [8, 256, 256, 256] and a
  matrix g of shape [8, 256] (`chanScaled`). The kernel computes it on the row-major flattening: x as the
  matrix [2048, 65536] whose row b·256 + c is the image (b, c), g as the column [2048, 1], each row of the
  matrix multiplied by its row's entry of the column (`rowScaled`), and the product cast back to
  [8, 256, 256, 256]. That the two agree is index arithmetic alone: entry (b, c, h, w) sits at row b·256 + c,
  column h·256 + w, and row b·256 + c of the column is g at (b, c). No law of the extended reals is used, so
  nothing here needs the entries to be finite.
-/
import proofs.«181339_j32710470926817_2_alg».proof.Proof.LibFlattenPairs
import Idealize.ShloMosaic.PureOps.Ideal

noncomputable section

namespace Cert.ChannelScale

open Idealize.ShloMosaic Idealize.ShloMosaic.ValueIdx Cert.LibFlattenPairs

/-- The batch of images, [batch, channel, height, width]. -/
abbrev Full : Shape := ⟨4, ![8, 256, 256, 256]⟩
/-- Its flattening: one row per (batch, channel), one column per pixel. -/
abbrev Flat : Shape := ⟨2, ![2048, 65536]⟩
/-- One entry per row of the flattening. -/
abbrev Col : Shape := ⟨2, ![2048, 1]⟩
/-- One entry per (batch, channel). -/
abbrev Chan : Shape := ⟨2, ![8, 256]⟩

/-- Every row of a [2048, 65536] matrix multiplied by that row's entry of a column. -/
def rowScaled (X : FVec Ideal Flat .f32) (s : FVec Ideal Col .f32) : FVec Ideal Flat .f32 :=
  fun j => X j * s (ix2 (n0 := 2048) (n1 := 1) (j 0) 0)

/-- Every image (b, c) of the batch multiplied by the entry (b, c) of a matrix. -/
def chanScaled (x : FVec Ideal Full .f32) (g : FVec Ideal Chan .f32) : FVec Ideal Full .f32 :=
  fun i => x i * g (ix2 (n0 := 8) (n1 := 256) (i 0) (i 1))

/-- The scale both programs apply: one plus the gate, entry by entry (the literal is the float 1.0; it is the same
    word on both sides and is never evaluated). -/
def onePlus (w : FVec Ideal Chan .f32) : FVec Ideal Chan .f32 :=
  fun j => Ideal.ofBits .f32 0x3F800000#32 + w j

/-- The programs' spelling of it: the scalar constant broadcast to the matrix's shape, plus the matrix. -/
theorem splat_one_add (w : FVec Ideal Chan .f32) (h : (⟨0, ![]⟩ : Shape).BroadcastsInDim Chan ![]) :
    addf (broadcastInDim Chan ![] h (constant (F := Ideal) ⟨0, ![]⟩ .f32 0x3F800000#32)) w = onePlus w := by
  funext j
  rw [addf_apply, broadcastInDim_apply ![] h _ j ix0 (fun a => a.elim0)]
  rfl

/-- Scaling the rows of the flattened batch by the flattened matrix, and casting back, scales the images. -/
theorem unflatten_rowScaled (x : FVec Ideal Full .f32) (g : FVec Ideal Chan .f32)
    (h1 : Full.ShapeCasts Flat) (h2 : Chan.ShapeCasts Col) (h3 : Flat.ShapeCasts Full) :
    shapeCast Full (rowScaled (shapeCast Flat x h1) (shapeCast Col g h2)) h3 = chanScaled x g := by
  funext i
  obtain ⟨b, c, p, q, rfl⟩ : ∃ (b : Fin 8) (c : Fin 256) (p : Fin 256) (q : Fin 256), i = ix4 b c p q :=
    ⟨i 0, i 1, i 2, i 3, eq_ix4 i⟩
  rw [unflatten_pairs_apply (a := 8) (b := 256) (c := 256) (d := 256) (n := 2048) (k := 65536) rfl rfl _ h3 b c p q]
  show shapeCast Flat x h1 (ix2 (merged rfl b c) (merged rfl p q))
      * shapeCast Col g h2 (ix2 (merged rfl b c) (0 : Fin 1)) = x (ix4 b c p q) * g (ix2 b c)
  rw [flatten_pairs_apply (a := 8) (b := 256) (c := 256) (d := 256) (n := 2048) (k := 65536) rfl rfl x h1 b c p q,
    column_of_matrix_apply (a := 8) (b := 256) (n := 2048) rfl g h2 b c]

end Cert.ChannelScale

end
-- ==== Proof.KernelBlocks.lean ====
/-
  The array the kernel's region leaves: every row of its first operand scaled by that row's entry of its second.

  The region runs over 64 points. Point t stages rows 32·t … 32·t + 31 of the [2048, 65536] matrix and the same
  rows of the [2048, 1] column, multiplies each staged row by its column entry, and writes the 32 rows back to the
  same place of the result. So what point t writes back is the restriction to those rows of ONE function of the two
  operand arrays (`rowScaled`), the 64 blocks tile the result, and the result array ends as that function.
-/
import proofs.«181339_j32710470926817_2_alg».proof.Proof.Gen.KernelIdeal.Frame
import proofs.«181339_j32710470926817_2_alg».proof.Proof.ChannelScale
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.Pipeline Cert.ChannelScale

variable (m : (ℓ : Loc nD τ sig) → Buf (Elt Ideal) ℓ)

theorem zero_offsets : (![0, 0] : Fin 2 → Nat) = fun _ => 0 := funext fun a => by fin_cases a <;> rfl

/-- The body's product at an entry: the staged matrix entry times the staged column's entry of the same row. -/
theorem product_at (x0 : Vec Ideal S32x65536 .f32) (x1 : Vec Ideal S32x1 .f32) (y : S32x65536.Idx) :
    k0_pay1 (F := Ideal) x0 x1 y = x0 y * x1 (ix2 (n0 := 32) (n1 := 1) (y 0) 0) := by
  unfold k0_pay1
  show shapeCast S32x65536 x0 shapeCasts_S32x65536_S32x65536 y
      * broadcastTo S32x65536 (shapeCast S32x1 x1 shapeCasts_S32x1_S32x1) broadcasts_S32x1_S32x65536 y = _
  rw [shapeCast_self, shapeCast_self,
    broadcastTo_apply x1 broadcasts_S32x1_S32x65536 y (ix2 (n0 := 32) (n1 := 1) (y 0) 0) (fun a => match a with
      | ⟨0, _⟩ => by show (y 0).val = if (32 : Nat) = 1 then 0 else (y 0).val; rw [if_neg (by decide)]
      | ⟨1, _⟩ => by show 0 = if (1 : Nat) = 1 then 0 else (y 1).val; rw [if_pos rfl])]

/-- A matrix entry times the column's entry of its row is the row-scaled matrix there (the entry and the column
    index named by equations, so that a block's indices can be substituted). -/
theorem scaled_entry (X : FVec Ideal S2048x65536 .f32) (s : FVec Ideal S2048x1 .f32)
    (i0 i2 : S2048x65536.Idx) (i1 : S2048x1.Idx) (h0 : i0 = i2)
    (h1 : i1 = ix2 (n0 := 2048) (n1 := 1) (i2 0) 0) : X i0 * s i1 = rowScaled X s i2 := by
  subst h0 h1; rfl

/-- The printed index maps over the 64 points: the two operands' blocks move with the result's, the column's
    second block index is 0, the result's first block index stays below 64 and its second is 0. -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) ≤ 63
    ∧ win0_2.index t (1 : Fin 2) = 0 :=
  (by decide +kernel : ∀ t : Fin grid0.N, _)

/-- Every block of rows is some point's. -/
theorem index_onto : ∀ q : Fin 64, ∃ t : Fin cfg0.N, win0_2.index t = ![q.val, 0] :=
  (by decide +kernel : ∀ q : Fin 64, ∃ t : Fin grid0.N, win0_2.index t = ![q.val, 0])

/-- What point `t` writes back is block `t` of the row-scaled matrix of the two operand arrays as the region finds them. -/
theorem flushed_eq (c : Dev nD) (t : Fin cfg0.N) :
    (dats m 0 c).flushed 2 t
      = ((cfg0.win 2).blk t).view.read (Elt Ideal) (rowScaled (V m c main_v28) (V m c main_v29)) := by
  show (cfg0.win 2).cut (grid0.coords t) ((dats m 0 c).after 2 t) = _
  rw [after0_2]
  unfold out0_2
  rw [View.canon_unit_zero zero_offsets]
  simp only [View.ld_unit_zero (S := S32x65536) zero_offsets, View.ld_unit_zero (S := S32x1) zero_offsets]
  obtain ⟨e0, e1, e2, e3, e4, e5⟩ := index_facts t
  funext j
  refine (product_at (iblk m c 0 t) (iblk m c 1 t) j).trans ?_
  have h0 : ((cfg0.win 0).blk t).view.emb j = ((cfg0.win 2).blk t).view.emb j := by
    funext a; apply Fin.ext
    match a with
    | ⟨0, _⟩ => show win0_0.index t (0 : Fin 2) * 32 + 1 * (j 0).val = win0_2.index t (0 : Fin 2) * 32 + 1 * (j 0).val; omega
    | ⟨1, _⟩ => show win0_0.index t (1 : Fin 2) * 65536 + 1 * (j 1).val = win0_2.index t (1 : Fin 2) * 65536 + 1 * (j 1).val; omega
  have h1 : ((cfg0.win 1).blk t).view.emb (ix2 (n0 := 32) (n1 := 1) (j 0) 0)
      = ix2 (n0 := 2048) (n1 := 1) ((((cfg0.win 2).blk t).view.emb j) 0) 0 := by
    funext a; apply Fin.ext
    match a with
    | ⟨0, _⟩ => show win0_1.index t (0 : Fin 2) * 32 + 1 * (j 0).val = win0_2.index t (0 : Fin 2) * 32 + 1 * (j 0).val; omega
    | ⟨1, _⟩ => show win0_1.index t (1 : Fin 2) * 1 + 1 * 0 = 0; omega
  exact scaled_entry (V m c main_v28) (V m c main_v29) _ _ _ h0 h1

/-- An index of the result is in point `t`'s block iff each coordinate is in the block's range on its axis. -/
theorem mem_block (t : Fin cfg0.N) (i : S2048x65536.Idx) :
    i ∈ ((cfg0.win 2).blk t).view.set ↔ ∀ a : Fin 2, win0_2.index t a * S32x65536.size a ≤ (i a).val
      ∧ (i a).val < win0_2.index t a * S32x65536.size a + S32x65536.size a := by
  show i ∈ ((View.whole main_v30).slice (win0_2.rect t)).set ↔ _
  rw [View.set_slice_whole, Rect.mem_set_unit]
  exact Iff.rfl

/-- Every index of the result is in the block of the point that holds its row: row r is in block r / 32. -/
theorem covered (i : S2048x65536.Idx) :
    ∃ t : Fin cfg0.N, (cfg0.win 2).flush t = true ∧ i ∈ ((cfg0.win 2).blk t).view.set := by
  have hi0 : (i 0).val < 2048 := (i 0).isLt
  have hi1 : (i 1).val < 65536 := (i 1).isLt
  obtain ⟨t, ht⟩ := index_onto ⟨(i 0).val / 32, by omega⟩
  have q0 : win0_2.index t (0 : Fin 2) = (i 0).val / 32 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 65536 ≤ (i 1).val ∧ (i 1).val < win0_2.index t (1 : Fin 2) * 65536 + 65536; omega

/-- The result array after the region: the first operand's rows scaled by the second's entries. -/
theorem result_array (c : Dev nD) :
    (dats m 0 c).arrAt 2 cfg0.N = rowScaled (V m c main_v28) (V m c main_v29) :=
  (dats m 0 c).arrAt_eq_of_cover 2 (rowScaled (V m c main_v28) (V m c main_v29))
    (fun t _ => flushed_eq m c t) covered

end Cert.KernelIdeal.Blocks

end
-- ==== Proof.KernelHost.lean ====
/-
  The two arrays the region is launched on, as functions of the program's arguments.

  Before the region the host computes the gate from the last five arguments (a transpose, a product, a bias, a
  leaky rectifier, a second transpose, product and bias, and a softmax over the channels), adds one to it, and
  reshapes: the batch [8, 256, 256, 256] to the matrix [2048, 65536], and the [8, 256] scale to the column [2048, 1].
  The region's first operand is the reshaped batch and its second the reshaped scale. The host's gate is, operation
  for operation, the term the reference computes; it is identified with the reference's stage by unfolding both, and is
  not opened anywhere else.
-/
import proofs.«181339_j32710470926817_2_alg».proof.Proof.Gen.KernelIdeal.Frame
import proofs.«181339_j32710470926817_2_alg».proof.Proof.Gen.ReferenceIdeal.Read
import proofs.«181339_j32710470926817_2_alg».proof.Proof.ChannelScale
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo Cert.ChannelScale

variable (m : (ℓ : Loc nD τ sig) → Buf (Elt Ideal) ℓ)

/-- The region's first operand is the batch, reshaped to one row per image. -/
theorem flat_input (c : Dev nD) :
    (V m c main_v28 : FVec Ideal S2048x65536 .f32)
      = shapeCast S2048x65536 (m ((c : Thread nD τ).loc main_arg0)) shapeCasts_S8x256x256x256_S2048x65536 := by
  dsimp only [V, V0]
  simp only [hostOps0, hostOps0_1, hostOps0_2, List.flatten_cons, List.flatten_nil, List.append_nil, List.cons_append,
    List.nil_append]
  after_results
  rfl

set_option maxHeartbeats 2000000 in
/-- The region's second operand is the constant one broadcast to [8, 256] plus the gate, reshaped to a column; the gate
    is the reference's stage of the same arguments. -/
theorem scale_column_spelt (c : Dev nD) :
    (V m c main_v29 : FVec Ideal S2048x1 .f32)
      = shapeCast S2048x1 (addf (broadcastInDim S8x256 ![] bcast_S_S8x256 (constant (F := Ideal) S_ .f32 0x3F800000#32))
          (Cert.ReferenceIdeal.Read.val_main_v25 (F := Ideal) (m ((c : Thread nD τ).loc main_arg1))
            (m ((c : Thread nD τ).loc main_arg2)) (m ((c : Thread nD τ).loc main_arg3))
            (m ((c : Thread nD τ).loc main_arg4)) (m ((c : Thread nD τ).loc main_arg5))))
          shapeCasts_S8x256_S2048x1 := by
  dsimp only [V, V0]
  simp only [hostOps0, hostOps0_1, hostOps0_2, List.flatten_cons, List.flatten_nil, List.append_nil, List.cons_append,
    List.nil_append]
  after_results_simp
  rfl

/-- The same with the sum named: the column of one plus the gate. -/
theorem scale_column (c : Dev nD) :
    (V m c main_v29 : FVec Ideal S2048x1 .f32)
      = shapeCast S2048x1 (onePlus (Cert.ReferenceIdeal.Read.val_main_v25 (F := Ideal) (m ((c : Thread nD τ).loc main_arg1))
            (m ((c : Thread nD τ).loc main_arg2)) (m ((c : Thread nD τ).loc main_arg3))
            (m ((c : Thread nD τ).loc main_arg4)) (m ((c : Thread nD τ).loc main_arg5))))
          shapeCasts_S8x256_S2048x1 :=
  (scale_column_spelt m c).trans
    (congrArg (fun g : FVec Ideal S8x256 .f32 => shapeCast S2048x1 g shapeCasts_S8x256_S2048x1)
      (splat_one_add _ bcast_S_S8x256))

end Cert.KernelIdeal.HostSide

end
-- ==== Proof.KernelRun.lean ====
/-
  The idealized kernel's run, with its result named: the batch scaled per channel by one plus the gate.

  The region leaves in its result array the rows of the reshaped batch scaled by the reshaped column of one plus the
  gate; the one host operation after the region casts that [2048, 65536] matrix back to [8, 256, 256, 256]. Row
  b·256 + c of the matrix is image (b, c) and its column entry is entry (b, c) of the scale, so the program's result
  is x[b, c, h, w] · (1 + gate[b, c]). The arguments end as they were launched.
-/
import proofs.«181339_j32710470926817_2_alg».proof.Proof.KernelBlocks
import proofs.«181339_j32710470926817_2_alg».proof.Proof.KernelHost
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.StableHlo Cert.ChannelScale

variable (m : (ℓ : Loc nD τ sig) → Buf (Elt Ideal) ℓ) (ρ : Dev nD → PrngReg)

/-- The region's result array as a function of the program's arguments. -/
theorem region_result (c : Dev nD) :
    (Pipeline.withArrays (cfgs 0).spec c (V0 m c) (fun w => (dats m 0 c).arrAt w (cfgs 0).N)
        (Proc.devRef .tc main_v30) : FVec Ideal S2048x65536 .f32)
      = rowScaled (shapeCast S2048x65536 (m ((c.tc : Thread nD τ).loc main_arg0)) shapeCasts_S8x256x256x256_S2048x65536)
          (shapeCast S2048x1 (onePlus (Cert.ReferenceIdeal.Read.val_main_v25 (F := Ideal) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5)))) shapeCasts_S8x256_S2048x1) :=
  (Pipeline.withArrays_arr spec0 launch0.win.arr_inj c _ _ 2).trans
    ((Blocks.result_array m c).trans (by rw [HostSide.flat_input, HostSide.scale_column]))

/-- What the program's result buffer holds after the host operation that follows the region. -/
theorem result_tail (c : Dev nD) :
    (Pipeline.afterTail₀ cfgs (dats m) 0 (V0 m) [hostOps1] c main_v31 : FVec Ideal S8x256x256x256 .f32)
      = chanScaled (m ((c.tc : Thread nD τ).loc main_arg0)) (onePlus (Cert.ReferenceIdeal.Read.val_main_v25 (F := Ideal) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5)))) := by
  unfold Pipeline.afterTail₀
  show StableHlo.after hostOps1 _ (Proc.devRef .tc main_v31) = _
  after_results
  refine Eq.trans ?_ (unflatten_rowScaled (m ((c.tc : Thread nD τ).loc main_arg0)) (onePlus (Cert.ReferenceIdeal.Read.val_main_v25 (F := Ideal) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))))
    shapeCasts_S8x256x256x256_S2048x65536 shapeCasts_S8x256_S2048x1 shapeCasts_S2048x65536_S8x256x256x256)
  exact congrArg (fun A : FVec Ideal S2048x65536 .f32 => shapeCast S8x256x256x256 A shapeCasts_S2048x65536_S8x256x256x256)
    (region_result m c)

/-- Every weakly fair execution of the idealized kernel terminates with its result at the per-channel scale of the
    batch by one plus the gate, and its arguments unchanged. -/
theorem run : θ_run defs (onTc (τ := τ) (main (F := Ideal))) ⟨m, fun _ => 0, ρ⟩ fun r => ∀ c : Dev nD,
      r.2.mem ((c.tc : Thread nD τ).loc main_v31)
        = chanScaled (m ((c.tc : Thread nD τ).loc main_arg0)) (onePlus (Cert.ReferenceIdeal.Read.val_main_v25 (F := Ideal) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v31 (Pipeline.mem_restRefs_of main_v31 (by decide) (by decide))).trans (result_tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.RunValue

end
-- ==== Proof.ReferenceValue.lean ====
/-
  The reference's result is the per-channel scale of its first argument by one plus its gate.

  The reference computes the gate (a softmax over the channels of a two-layer perceptron of the second argument) as
  an [8, 256] matrix, adds one to it on the shape [8, 256, 1, 1], repeats the sum over the pixels, and multiplies the
  batch by it. Read at an entry (b, c, h, w) through the two broadcasts, that is x[b, c, h, w] · (1 + gate[b, c]).
  The gate itself is never opened here: it is the same term of the arguments on both sides.
-/
import proofs.«181339_j32710470926817_2_alg».proof.Proof.Gen.ReferenceIdeal.Read
import proofs.«181339_j32710470926817_2_alg».proof.Proof.ChannelScale

noncomputable section

namespace Cert.ReferenceIdeal.RefValue

open Cert.ReferenceIdeal Cert.ReferenceIdeal.Read Idealize.ShloMosaic Idealize.ShloMosaic.ValueIdx Cert.ChannelScale

/-- The reference's last stage, as a function of its arguments, is the batch scaled per channel by one plus the gate. -/
theorem result_eq (x0 : FVec Ideal S8x256x256x256 .f32) (x1 : FVec Ideal S8x256 .f32) (x2 : FVec Ideal S256x256 .f32)
    (x3 : FVec Ideal S256 .f32) (x4 : FVec Ideal S256x256 .f32) (x5 : FVec Ideal S256 .f32) :
    val_main_v30 (F := Ideal) x0 x1 x2 x3 x4 x5
      = chanScaled x0 (onePlus (val_main_v25 (F := Ideal) x1 x2 x3 x4 x5)) := by
  funext i
  have e : idx_main_v26 (idx_main_v29 i) = ix2 (n0 := 8) (n1 := 256) (i 0) (i 1) :=
    funext fun a => Fin.ext (by match a with | ⟨0, _⟩ => rfl | ⟨1, _⟩ => rfl)
  rw [val_main_v30_apply, val_main_v29_apply, val_main_v28_apply, val_main_v27_apply, val_main_cst_4_apply,
    val_main_v26_apply, e]
  rfl

end Cert.ReferenceIdeal.RefValue

end
-- ==== Proof.lean ====
/-
  A per-channel gate of a batch of images: the kernel against its reference, over the extended reals.

  Both programs compute, from a batch x of shape [8, 256, 256, 256] and the parameters of a small perceptron, a gate
  of shape [8, 256] (a softmax over the channels), and return x[b, c, h, w] · (1 + gate[b, c]). The host operations
  that compute the gate are the same in both programs, operation for operation, so the gate is one term of the
  arguments on both sides and is never opened. The programs differ in how the product is laid out. The reference
  broadcasts 1 + gate over the pixels and multiplies. The kernel reshapes the batch to a [2048, 65536] matrix (one row
  per image) and 1 + gate to a [2048, 1] column, multiplies every row by its column entry in a region of 64 points
  of 32 rows each, and reshapes the product back. Row b·256 + c of the matrix is image (b, c), and that row's column
  entry is entry (b, c) of the scale: the two results agree entry by entry, by index arithmetic alone. No law of the
  extended reals is needed beyond that, so the precondition (finite inputs) is not used by the value part.

  The three frames are the generated ones (the reference's is its run with the result dropped); the idealization
  rewrote nothing, so the kernel's idealized print is its own text read over the extended reals.
-/
import proofs.«181339_j32710470926817_2_alg».proof.Defs
import proofs.«181339_j32710470926817_2_alg».proof.Proof.Gen.Kernel
import proofs.«181339_j32710470926817_2_alg».proof.Proof.Gen.Kernel.Skeleton
import proofs.«181339_j32710470926817_2_alg».proof.Proof.Gen.Kernel.Launch
import proofs.«181339_j32710470926817_2_alg».proof.Proof.Gen.Kernel.Points
import proofs.«181339_j32710470926817_2_alg».proof.Proof.Gen.Kernel.Frame
import proofs.«181339_j32710470926817_2_alg».proof.Proof.Gen.KernelIdeal
import proofs.«181339_j32710470926817_2_alg».proof.Proof.Gen.KernelIdeal.Skeleton
import proofs.«181339_j32710470926817_2_alg».proof.Proof.Gen.KernelIdeal.Launch
import proofs.«181339_j32710470926817_2_alg».proof.Proof.Gen.KernelIdeal.Points
import proofs.«181339_j32710470926817_2_alg».proof.Proof.Gen.KernelIdeal.Frame
import proofs.«181339_j32710470926817_2_alg».proof.Proof.Gen.ReferenceIdeal
import proofs.«181339_j32710470926817_2_alg».proof.Proof.Gen.ReferenceIdeal.Run
import proofs.«181339_j32710470926817_2_alg».proof.Proof.Gen.ReferenceIdeal.Read
import proofs.«181339_j32710470926817_2_alg».proof.Proof.Gen.Pre_finite_inputs
import proofs.«181339_j32710470926817_2_alg».proof.Proof.KernelRun
import proofs.«181339_j32710470926817_2_alg».proof.Proof.ReferenceValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the batch scaled per channel by one plus the
    gate of the arguments: the kernel by its region's rows and the reshape back, the reference by its broadcasts. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v30_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
